-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S16384 : Shape := ⟨1, ![16384]⟩
abbrev S1024x1024 : Shape := ⟨2, ![1024, 1024]⟩
abbrev S1024 : Shape := ⟨1, ![1024]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v1 : BitVec 32 := Scalar.muli c0_i32 c256_i32
  v1
def k0_off1 (c0_i32 : BitVec 32) : Fin 2 → Nat :=
  let c0 : Index := 0#32
  let c256_i32 : BitVec 32 := 256#32
  let v1 : BitVec 32 := Scalar.muli c0_i32 c256_i32
  let v2 : BitVec 32 := v1
  let v3 : Index := Scalar.indexCast v2
  ![0, v3.toNat]
def k0_mult2 : BitVec 32 :=
  let c1_i32 : BitVec 32 := 1#32
  let c256_i32_6 : BitVec 32 := 256#32
  let v26 : BitVec 32 := Scalar.muli c1_i32 c256_i32_6
  v26
def k0_mult3 : BitVec 32 :=
  let c2_i32 : BitVec 32 := 2#32
  let c256_i32_14 : BitVec 32 := 256#32
  let v51 : BitVec 32 := Scalar.muli c2_i32 c256_i32_14
  v51
def k0_mult4 : BitVec 32 :=
  let c3_i32 : BitVec 32 := 3#32
  let c256_i32_22 : BitVec 32 := 256#32
  let v76 : BitVec 32 := Scalar.muli c3_i32 c256_i32_22
  v76
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S1024x256 : 0 < S1024x256.numel
  reduces_S1024x256_S1024 : S1024x256.Reduces [1] S1024
  inb_S1024_S1024_0 : ∀ a, (![0] : Fin 1 → Nat) a + S1024.size a ≤ S1024.size a
  h_S1024 : 0 < S1024.numel
  hrank0 : 0 < grid0.rank
  k0_mult1_dvd : 256 ∣ k0_mult1.toNat
  k0_off1_inb : ∀ (r : Fin 4), ∀ a, (k0_off1 (BitVec.ofNat 32 r.val)) a + S1024x256.size a ≤ S1024x1024.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S16384.size a
  hwx0_4 : ∀ i : grid0.Coords, EltTy.bits .f32 = 32 ∨ (Rect.block (s := S16384) S1024.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  reducesTo_S16384x1024_S16384_d1 : S16384x1024.ReducesTo [1] S16384
  h_S_ : 0 < S_.numel
  bcast_S_S16384 : S_.BroadcastsInDim S16384 (![] : Fin 0 → Fin S16384.rank)

variable [Facts₀]

class Facts : Prop extends Facts₀ where

variable [Facts]
-- ==== Proof.ChunkSum.lean ====
/-
  A sum over 1024 consecutive positions is the sum of its four consecutive stretches of 256, in any
  commutative additive monoid — in particular on the extended reals, where addition is associative and
  commutative (the only laws used), so nothing here asks for finiteness of the summands.
-/
import Mathlib.Algebra.BigOperators.Fin
import Mathlib.Algebra.BigOperators.Intervals

namespace Cert.ChunkSum

open Finset

/-- `∑_{d < 1024} f d` split at 256, 512 and 768, the stretches added left to right. -/
theorem sum_1024_eq_four_256 {M : Type*} [AddCommMonoid M] (f : ℕ → M) :
    ∑ d : Fin 1024, f d.val
      = (((∑ j : Fin 256, f j.val) + ∑ j : Fin 256, f (256 + j.val))
          + ∑ j : Fin 256, f (512 + j.val)) + ∑ j : Fin 256, f (768 + j.val) := by
  rw [Fin.sum_univ_eq_sum_range f 1024, Fin.sum_univ_eq_sum_range f 256,
    Fin.sum_univ_eq_sum_range (fun n => f (256 + n)) 256,
    Fin.sum_univ_eq_sum_range (fun n => f (512 + n)) 256,
    Fin.sum_univ_eq_sum_range (fun n => f (768 + n)) 256]
  rw [show (1024 : ℕ) = 768 + 256 from rfl, Finset.sum_range_add,
    show (768 : ℕ) = 512 + 256 from rfl, Finset.sum_range_add,
    show (512 : ℕ) = 256 + 256 from rfl, Finset.sum_range_add]

/-- Position `off + j` of a stretch of 256 starting at `off ≤ 768`, as a position below 1024. -/
abbrev at_ (off : ℕ) (hoff : off + 256 ≤ 1024) (j : Fin 256) : Fin 1024 := ⟨off + j.val, by have := j.isLt; omega⟩

/-- The same over a function of positions below 1024: the stretches start at 0, 256, 512 and 768. -/
theorem sum_fin1024_eq_four_256 {M : Type*} [AddCommMonoid M] (g : Fin 1024 → M) :
    ∑ d : Fin 1024, g d
      = (((∑ j : Fin 256, g (at_ 0 (by omega) j)) + ∑ j : Fin 256, g (at_ 256 (by omega) j))
          + ∑ j : Fin 256, g (at_ 512 (by omega) j)) + ∑ j : Fin 256, g (at_ 768 (by omega) j) := by
  have e : ∀ (off : ℕ) (hoff : off + 256 ≤ 1024),
      ∑ j : Fin 256, (fun n => if h : n < 1024 then g ⟨n, h⟩ else 0) (off + j.val) = ∑ j : Fin 256, g (at_ off hoff j) :=
    fun off hoff => Finset.sum_congr rfl fun j _ => dif_pos _
  have h := sum_1024_eq_four_256 (fun n => if h : n < 1024 then g ⟨n, h⟩ else 0)
  rw [e 256 (by omega), e 512 (by omega), e 768 (by omega)] at h
  have e0 := e 0 (by omega)
  simp only [Nat.zero_add] at e0
  rw [e0] at h
  refine Eq.trans (Finset.sum_congr rfl fun d _ => ?_) h
  rw [dif_pos d.isLt]

end Cert.ChunkSum
-- ==== Proof.KlSpec.lean ====
/-
  The specification. For one sample (one row of the four arrays) the divergence is

      half · (zero + ∑_{d < 1024} term(mq_d, sq_d, mp_d, sp_d)),
      term(mq, sq, mp, sp) = exp(sp − sq) + (mq − mp)² · exp(−sq) + sq − sp − one,

  on the extended reals, with `half`, `zero`, `one` the values the three float words denote (they are the same
  words in both programs, so they are never evaluated, except that the zero word is 0). The blocked program
  adds the row's four stretches of 256 lanes one after the other onto `zero`; that is the same number because
  addition of extended reals is associative: no finiteness of the summands is needed.
-/
import Idealize.ShloMosaic.PureOps.Ideal.Laws
import Idealize.ShloMosaic.Lib.ValueIdx
import proofs.«180838_j17987323036508_2_alg».proof.Proof.ChunkSum

noncomputable section

namespace Cert.Kl

open Idealize.ShloMosaic Idealize.ShloMosaic.ValueIdx Cert.ChunkSum

/-- What the word of +0.0 denotes. -/
abbrev zero : EReal := Ideal.ofBits .f32 0x00000000#32
/-- What the word of 1.0 denotes. -/
abbrev one : EReal := Ideal.ofBits .f32 0x3F800000#32
/-- What the word of 0.5 denotes. -/
abbrev half : EReal := Ideal.ofBits .f32 0x3F000000#32

theorem zero_eq : zero = 0 := Ideal.ofBits_zero_f32

/-- One coordinate's summand: `exp(sp − sq) + (mq − mp)² · exp(−sq) + sq − sp − one`, associated as both programs
    compute it. -/
def term (mq sq mp sp : EReal) : EReal :=
  Ideal.exp (sp - sq) + (mq - mp) * (mq - mp) * Ideal.exp (-sq) + sq - sp - one

/-- The blocked program negates by subtracting from the zero word: `zero − x = −x`. -/
theorem term_zero_sub (mq sq mp sp : EReal) :
    Ideal.exp (sp - sq) + (mq - mp) * (mq - mp) * Ideal.exp (zero - sq) + sq - sp - one = term mq sq mp sp := by
  unfold term; rw [zero_eq, zero_sub]

/-- A row's value from its 1024 summands. -/
def rowKl (f : Fin 1024 → EReal) : EReal := half * (zero + ∑ d : Fin 1024, f d)

/-- The four stretches of 256 summands added in turn onto `zero` give the row's value. -/
theorem chunked_eq_rowKl (f : Fin 1024 → EReal) :
    half * ((((zero + ∑ j : Fin 256, f (at_ 0 (by omega) j)) + ∑ j : Fin 256, f (at_ 256 (by omega) j))
        + ∑ j : Fin 256, f (at_ 512 (by omega) j)) + ∑ j : Fin 256, f (at_ 768 (by omega) j))
      = rowKl f := by
  unfold rowKl
  rw [sum_fin1024_eq_four_256 f, add_assoc, add_assoc, add_assoc, add_assoc, add_assoc]

/-- THE RESULT as one function of the four argument arrays: entry `i` is row `i`'s value. -/
def klArray (mq sq mp sp : (⟨2, ![16384, 1024]⟩ : Shape).Idx → EReal) : (⟨1, ![16384]⟩ : Shape).Idx → EReal :=
  fun i => rowKl fun d => term (mq (ix2 (n0 := 16384) (n1 := 1024) (i 0) d)) (sq (ix2 (n0 := 16384) (n1 := 1024) (i 0) d))
    (mp (ix2 (n0 := 16384) (n1 := 1024) (i 0) d)) (sp (ix2 (n0 := 16384) (n1 := 1024) (i 0) d))

theorem klArray_apply (mq sq mp sp : (⟨2, ![16384, 1024]⟩ : Shape).Idx → EReal) (r : Fin 16384) :
    klArray mq sq mp sp (ix1 r) = rowKl fun d => term (mq (ix2 r d)) (sq (ix2 r d)) (mp (ix2 r d)) (sp (ix2 r d)) := rfl

end Cert.Kl

end
-- ==== Proof.BodyValue.lean ====
/-
  The body's arithmetic read at one row, on the extended reals. The body keeps a running row total: it starts
  from the zero word, and for each stretch of 256 lanes adds the lane sum of that stretch's summands; the stored
  value is `half` times the total after the fourth stretch. Each lemma below reads one of the body's pure terms
  at row `p`, over arbitrary stretch contents.
-/
import proofs.«180838_j17987323036508_2_alg».proof.Proof.Gen.KernelIdeal.Skeleton
import proofs.«180838_j17987323036508_2_alg».proof.Proof.KlSpec
import Idealize.ShloMosaic.PureOps.Ideal.Laws
import Idealize.ShloMosaic.Lib.ValueIdx

noncomputable section

namespace Cert.KlBody

open Idealize.ShloMosaic Idealize.ShloMosaic.ValueIdx Cert.KernelIdeal Cert.KernelIdeal.Gen Cert.Kl

/-- A lane sum of a 1024×256 stretch at row `p` is the sum of the row's 256 entries. -/
theorem laneSum (v : FVec Ideal S1024x256 .f32) (h : S1024x256.Reduces [1] S1024) (hφ : FKind.Formats .f32)
    (hacc : (0x00000000#32 : BitVec 32) = FKind.add.neutral .f32 hφ) (p : Fin 1024) :
    multiReduction .add [1] S1024 v 0x00000000#32 h hφ hacc (ix1 p) = ∑ j : Fin 256, v (ix2 p j) := by
  refine (Ideal.multiReduction_add_single v _ h hφ hacc (ix1 p)).trans ?_
  exact Finset.sum_congr rfl fun j _ => congrArg v (funext fun a => Fin.ext (by match a with | ⟨0, _⟩ => rfl | ⟨1, _⟩ => rfl))

/-- The elementwise exponential at an index. -/
theorem exp_apply {s : Shape} (a : FVec Ideal s .f32) (i : s.Idx) : exp a i = Ideal.exp (a i) := rfl

/-- One stretch's summand array at `(p, j)` is `term` of the four entries there. -/
theorem summand_apply (mq sq mp sp : Vec Ideal S1024x256 .f32) (p : Fin 1024) (j : Fin 256) :
    subf (subf (addf (addf (exp (subf sp sq))
        (mulf (mulf (subf mq mp) (subf mq mp)) (exp (subf (broadcast S1024x256 (Scalar.ofBits (F := Ideal) .f32 0x00000000#32)) sq)))) sq) sp)
      (broadcast S1024x256 (Scalar.ofBits (F := Ideal) .f32 0x3F800000#32)) (ix2 p j)
      = term (mq (ix2 p j)) (sq (ix2 p j)) (mp (ix2 p j)) (sp (ix2 p j)) :=
  term_zero_sub _ _ _ _

/-- The first stretch: the total starts at the zero word. -/
theorem pay2_apply (mq sq mp sp : Vec Ideal S1024x256 .f32) (p : Fin 1024) :
    k0_pay2 (F := Ideal) mq sq mp sp (ix1 p)
      = zero + ∑ j : Fin 256, term (mq (ix2 p j)) (sq (ix2 p j)) (mp (ix2 p j)) (sp (ix2 p j)) := by
  unfold k0_pay2
  dsimp only
  refine congrArg (fun z => zero + z) ?_
  refine (laneSum _ _ _ _ p).trans ?_
  exact Finset.sum_congr rfl fun j _ => summand_apply mq sq mp sp p j

/-- The second and third stretches, added onto the total so far. -/
theorem pay6_apply (acc : FVec Ideal S1024 .f32) (mq1 sq1 mp1 sp1 mq2 sq2 mp2 sp2 : Vec Ideal S1024x256 .f32) (p : Fin 1024) :
    k0_pay6 (F := Ideal) acc sq1 sp1 (k0_pay3 sq1 sp1) (k0_pay4 mq1 mp1) (k0_pay5 sq1) mq2 sq2 mp2 sp2 (ix1 p)
      = (acc (ix1 p) + ∑ j : Fin 256, term (mq1 (ix2 p j)) (sq1 (ix2 p j)) (mp1 (ix2 p j)) (sp1 (ix2 p j)))
          + ∑ j : Fin 256, term (mq2 (ix2 p j)) (sq2 (ix2 p j)) (mp2 (ix2 p j)) (sp2 (ix2 p j)) := by
  unfold k0_pay6 k0_pay3 k0_pay4 k0_pay5
  dsimp only
  refine congrArg₂ (fun y z => (acc (ix1 p) + y) + z) ?_ ?_
  · refine (laneSum _ _ _ _ p).trans ?_
    exact Finset.sum_congr rfl fun j _ => summand_apply mq1 sq1 mp1 sp1 p j
  · refine (laneSum _ _ _ _ p).trans ?_
    exact Finset.sum_congr rfl fun j _ => summand_apply mq2 sq2 mp2 sp2 p j

/-- The fourth stretch and the final scaling by `half`. -/
theorem pay1_apply (acc : FVec Ideal S1024 .f32) (mq sq mp sp : Vec Ideal S1024x256 .f32) (p : Fin 1024) :
    k0_pay1 (F := Ideal) acc mq sq mp sp (ix1 p)
      = half * (acc (ix1 p) + ∑ j : Fin 256, term (mq (ix2 p j)) (sq (ix2 p j)) (mp (ix2 p j)) (sp (ix2 p j))) := by
  unfold k0_pay1
  dsimp only
  refine congrArg (fun z => half * (acc (ix1 p) + z)) ?_
  refine (laneSum _ _ _ _ p).trans ?_
  exact Finset.sum_congr rfl fun j _ => summand_apply mq sq mp sp p j

end Cert.KlBody

end
-- ==== Proof.PieceValue.lean ====
/-
  What the body leaves in the output's staging buffer. The body makes ONE store, of the whole 1024-entry block; its
  value is the body's arithmetic over sixteen loads, each a stretch of 256 columns (starting at column 0, 256, 512
  or 768) of one of the four 1024×1024 input blocks. Read at row `p`, on the extended reals, that is row `p`'s
  value over the four blocks' rows `p`: the stretches' lane sums added in turn onto the zero word, times `half`.
-/
import proofs.«180838_j17987323036508_2_alg».proof.Proof.Gen.KernelIdeal.Frame
import proofs.«180838_j17987323036508_2_alg».proof.Proof.BodyValue
import Idealize.ShloMosaic.Lib.Pipeline.Value
import Idealize.ShloMosaic.Lib.Tactic

set_option maxRecDepth 16384

noncomputable section

namespace Cert.KlPiece

open Idealize.ShloMosaic Idealize.ShloMosaic.TcCoe Idealize.ShloMosaic.ValueIdx Idealize.SL.Sem
open Cert.KernelIdeal Cert.KernelIdeal.Gen Cert.Kl Cert.KlBody Cert.ChunkSum

theorem hz1 : (![0] : Fin 1 → Nat) = fun _ => 0 := funext fun a => by
  match a with | ⟨0, _⟩ => rfl

section AnyInstance
variable {F : FTy → Type} [FloatOps F]

/-- The staging buffer after the body holds the body's arithmetic over the sixteen stretches. -/
theorem out_eq (c : Dev nD) (i : grid0.Coords)
    (a1 : Memref sig .tc .vmem S1024x1024 .f32) (h1 : a1.IsWhole) (a2 : Memref sig .tc .vmem S1024x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S1024 .f32) (h5 : a5.IsWhole) (x0 x1 x2 x3 : Vec F S1024x1024 .f32)
    (i0 : ∀ a, (![0, 0] : Fin 2 → Nat) a + S1024x256.size a ≤ S1024x1024.size a)
    (i1 : ∀ a, (![0, 256] : Fin 2 → Nat) a + S1024x256.size a ≤ S1024x1024.size a)
    (i2 : ∀ a, (![0, 512] : Fin 2 → Nat) a + S1024x256.size a ≤ S1024x1024.size a)
    (i3 : ∀ a, (![0, 768] : Fin 2 → Nat) a + S1024x256.size a ≤ S1024x1024.size a) :
    out0_A_4 c i a1 h1 a2 h2 a3 h3 a4 h4 a5 h5 x0 x1 x2 x3
      = k0_pay1
          (k0_pay6
            (k0_pay2 (View.ld x0 (Rect.unit ![0, 0] S1024x256.size i0)) (View.ld x1 (Rect.unit ![0, 0] S1024x256.size i0))
              (View.ld x2 (Rect.unit ![0, 0] S1024x256.size i0)) (View.ld x3 (Rect.unit ![0, 0] S1024x256.size i0)))
            (View.ld x1 (Rect.unit ![0, 256] S1024x256.size i1)) (View.ld x3 (Rect.unit ![0, 256] S1024x256.size i1))
            (k0_pay3 (View.ld x1 (Rect.unit ![0, 256] S1024x256.size i1)) (View.ld x3 (Rect.unit ![0, 256] S1024x256.size i1)))
            (k0_pay4 (View.ld x0 (Rect.unit ![0, 256] S1024x256.size i1)) (View.ld x2 (Rect.unit ![0, 256] S1024x256.size i1)))
            (k0_pay5 (View.ld x1 (Rect.unit ![0, 256] S1024x256.size i1)))
            (View.ld x0 (Rect.unit ![0, 512] S1024x256.size i2)) (View.ld x1 (Rect.unit ![0, 512] S1024x256.size i2))
            (View.ld x2 (Rect.unit ![0, 512] S1024x256.size i2)) (View.ld x3 (Rect.unit ![0, 512] S1024x256.size i2)))
          (View.ld x0 (Rect.unit ![0, 768] S1024x256.size i3)) (View.ld x1 (Rect.unit ![0, 768] S1024x256.size i3))
          (View.ld x2 (Rect.unit ![0, 768] S1024x256.size i3)) (View.ld x3 (Rect.unit ![0, 768] S1024x256.size i3)) := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz1]
  simp only [View.readAt_eq_ld, h1.read_unread, h2.read_unread, h3.read_unread, h4.read_unread]

end AnyInstance

/-- A stretch at `(p, j)` is the block at `(p, off + j)`. -/
theorem ld_stretch_apply (off : ℕ) (hoff : off + 256 ≤ 1024)
    (inb : ∀ a, (![0, off] : Fin 2 → Nat) a + S1024x256.size a ≤ S1024x1024.size a)
    (x : Vec Ideal S1024x1024 .f32) (p : Fin 1024) (j : Fin 256) :
    View.ld x (Rect.unit ![0, off] S1024x256.size inb) (ix2 p j) = x (ix2 p (at_ off hoff j)) := by
  show x ((Rect.unit (s := S1024x1024) ![0, off] S1024x256.size inb).emb (ix2 p j)) = _
  refine congrArg x (funext fun a => Fin.ext ?_)
  match a with
  | ⟨0, _⟩ => show 0 + 1 * p.val = p.val; omega
  | ⟨1, _⟩ => show off + 1 * j.val = off + j.val; omega

/-- ROW `p` of what the body leaves is row `p`'s value over the four input blocks. -/
theorem out_row (c : Dev nD) (i : grid0.Coords)
    (a1 : Memref sig .tc .vmem S1024x1024 .f32) (h1 : a1.IsWhole) (a2 : Memref sig .tc .vmem S1024x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S1024 .f32) (h5 : a5.IsWhole) (x0 x1 x2 x3 : Vec Ideal S1024x1024 .f32) (p : Fin 1024) :
    out0_A_4 (F := Ideal) c i a1 h1 a2 h2 a3 h3 a4 h4 a5 h5 x0 x1 x2 x3 (ix1 p)
      = rowKl fun d => term (x0 (ix2 p d)) (x1 (ix2 p d)) (x2 (ix2 p d)) (x3 (ix2 p d)) := by
  rw [out_eq c i a1 h1 a2 h2 a3 h3 a4 h4 a5 h5 x0 x1 x2 x3 (by decide) (by decide) (by decide) (by decide)]
  rw [pay1_apply, pay6_apply, pay2_apply]
  have s : ∀ (off : ℕ) (hoff : off + 256 ≤ 1024)
      (inb : ∀ a, (![0, off] : Fin 2 → Nat) a + S1024x256.size a ≤ S1024x1024.size a),
      (∑ j : Fin 256, term (View.ld x0 (Rect.unit ![0, off] S1024x256.size inb) (ix2 p j))
          (View.ld x1 (Rect.unit ![0, off] S1024x256.size inb) (ix2 p j))
          (View.ld x2 (Rect.unit ![0, off] S1024x256.size inb) (ix2 p j))
          (View.ld x3 (Rect.unit ![0, off] S1024x256.size inb) (ix2 p j)))
        = ∑ j : Fin 256, term (x0 (ix2 p (at_ off hoff j))) (x1 (ix2 p (at_ off hoff j)))
            (x2 (ix2 p (at_ off hoff j))) (x3 (ix2 p (at_ off hoff j))) :=
    fun off hoff inb => Finset.sum_congr rfl fun j _ => by
      rw [ld_stretch_apply off hoff inb x0 p j, ld_stretch_apply off hoff inb x1 p j,
        ld_stretch_apply off hoff inb x2 p j, ld_stretch_apply off hoff inb x3 p j]
  rw [s 0 (by omega), s 256 (by omega), s 512 (by omega), s 768 (by omega)]
  exact chunked_eq_rowKl fun d => term (x0 (ix2 p d)) (x1 (ix2 p d)) (x2 (ix2 p d)) (x3 (ix2 p d))

end Cert.KlPiece

end
-- ==== Proof.ArrayValue.lean ====
/-
  From blocks to the array. Grid point `t` (of 16) works on rows `1024·t … 1024·t + 1023`: its four input blocks
  are those rows of the four arguments, all 1024 columns, and its output block is those entries of the result. So
  what point `t` writes back is block `t` of the specification's `klArray` of the arguments; the 16 blocks cover
  all 16384 entries (entry `i` lies in block `i / 1024`), hence the result array ends at `klArray` of the arguments.
-/
import proofs.«180838_j17987323036508_2_alg».proof.Proof.Gen.KernelIdeal.Value
import proofs.«180838_j17987323036508_2_alg».proof.Proof.PieceValue
import Idealize.ShloMosaic.Lib.Pipeline.Value

set_option maxRecDepth 16384

noncomputable section

namespace Cert.KlArray

open Idealize.ShloMosaic Idealize.ShloMosaic.TcCoe Idealize.ShloMosaic.ValueIdx Idealize.SL.Sem
open Idealize.ShloMosaic.Pipeline (Dat)
open Cert.KernelIdeal Cert.KernelIdeal.Gen Cert.Kl Cert.KlPiece

variable (m : (ℓ : Loc nD τ sig) → Buf (Elt Ideal) ℓ) (ρ : Dev nD → PrngReg)

/-- The printed index maps over the grid: at point `t` every window is at row block `t`, the inputs at column block 0. -/
theorem idx_facts : ∀ t : Fin cfg0.N, win0_4.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := lt_of_lt_of_eq t.isLt N_0

/-- Input block 0 of point `t` at `(p, d)` is the first argument at `(1024·t + p, d)`. -/
theorem iblk0_apply (c : Dev nD) (t : Fin cfg0.N) (p d : Fin 1024) (r : Fin 16384) (hr : r.val = t.val * 1024 + p.val) :
    (iblk m c 0 t : Vec Ideal S1024x1024 .f32) (ix2 p d) = V m c main_arg0 (ix2 r d) := by
  obtain ⟨-, e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 1024 + 1 * p.val = r.val; rw [e0, hr]; omega
  | ⟨1, _⟩ => show win0_0.index t 1 * 1024 + 1 * d.val = d.val; rw [e1]; omega

/-- Input block 1, likewise of the second argument. -/
theorem iblk1_apply (c : Dev nD) (t : Fin cfg0.N) (p d : Fin 1024) (r : Fin 16384) (hr : r.val = t.val * 1024 + p.val) :
    (iblk m c 1 t : Vec Ideal S1024x1024 .f32) (ix2 p d) = V m c main_arg1 (ix2 r d) := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t 0 * 1024 + 1 * p.val = r.val; rw [e0, hr]; omega
  | ⟨1, _⟩ => show win0_1.index t 1 * 1024 + 1 * d.val = d.val; rw [e1]; omega

/-- Input block 2, of the third argument. -/
theorem iblk2_apply (c : Dev nD) (t : Fin cfg0.N) (p d : Fin 1024) (r : Fin 16384) (hr : r.val = t.val * 1024 + p.val) :
    (iblk m c 2 t : Vec Ideal S1024x1024 .f32) (ix2 p d) = V m c main_arg2 (ix2 r d) := by
  obtain ⟨-, -, -, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_2.index t 0 * 1024 + 1 * p.val = r.val; rw [e0, hr]; omega
  | ⟨1, _⟩ => show win0_2.index t 1 * 1024 + 1 * d.val = d.val; rw [e1]; omega

/-- Input block 3, of the fourth argument. -/
theorem iblk3_apply (c : Dev nD) (t : Fin cfg0.N) (p d : Fin 1024) (r : Fin 16384) (hr : r.val = t.val * 1024 + p.val) :
    (iblk m c 3 t : Vec Ideal S1024x1024 .f32) (ix2 p d) = V m c main_arg3 (ix2 r d) := by
  obtain ⟨-, -, -, -, -, -, -, e0, e1⟩ := idx_facts t
  unfold iblk
  rw [View.read_apply]
  show V m c main_arg3 _ = V m c main_arg3 _
  refine congrArg (V m c main_arg3) (funext fun a => Fin.ext ?_)
  match a with
  | ⟨0, _⟩ => show win0_3.index t 0 * 1024 + 1 * p.val = r.val; rw [e0, hr]; omega
  | ⟨1, _⟩ => show win0_3.index t 1 * 1024 + 1 * d.val = d.val; rw [e1]; omega

/-- The result as a function of the arrays the region finds. -/
abbrev result (c : Dev nD) : S16384.Idx → EReal :=
  klArray (V m c main_arg0) (V m c main_arg1) (V m c main_arg2) (V m c main_arg3)

/-- WHAT POINT `t` WRITES BACK is block `t` of `klArray` of the arguments. -/
theorem flushed_eq (c : Dev nD) (t : Fin cfg0.N) :
    (dats m 0 c).flushed 4 t = ((cfg0.win 4).blk t).view.read (Elt Ideal) (result m c) := by
  rw [Cert.KernelIdeal.Value.flushed4_A]
  funext y
  obtain ⟨p, rfl⟩ : ∃ p : Fin 1024, y = ix1 p := ⟨y 0, eq_ix1 y⟩
  have ht := t_lt t
  have e4 := (idx_facts t).1
  have hp := p.isLt
  let r : Fin 16384 := ⟨t.val * 1024 + p.val, by omega⟩
  have hE : ((cfg0.win 4).blk t).view.emb (ix1 p) = ix1 r := funext fun a => Fin.ext (by
    match a with
    | ⟨0, _⟩ => show win0_4.index t 0 * 1024 + 1 * p.val = t.val * 1024 + p.val; rw [e4]; omega)
  rw [View.read_apply, hE]
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix1 p) = klArray _ _ _ _ (ix1 r)
  rw [klArray_apply]
  refine (out_row c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) p).trans ?_
  refine congrArg rowKl (funext fun d => ?_)
  rw [iblk0_apply m c t p d r rfl, iblk1_apply m c t p d r rfl, iblk2_apply m c t p d r rfl, iblk3_apply m c t p d r rfl]

/-- An entry of the result array is in point `t`'s block iff it lies in the block's range. -/
theorem mem_blk (t : Fin cfg0.N) (i : S16384.Idx) :
    i ∈ ((cfg0.win 4).blk t).view.set ↔ ∀ a : Fin 1, win0_4.index t a * S1024.size a ≤ (i a).val ∧ (i a).val < win0_4.index t a * S1024.size a + S1024.size a := by
  show i ∈ ((View.whole main_v0).slice (win0_4.rect t)).set ↔ _
  rw [View.set_slice_whole, Rect.mem_set_unit]
  exact Iff.rfl

/-- THE RESULT ARRAY after the run is `klArray` of the arguments: entry `i` is in the block of point `i / 1024`. -/
theorem final (c : Dev nD) : (dats m 0 c).arrAt 4 cfg0.N = result m c :=
  (dats m 0 c).arrAt_eq_of_cover 4 (result m c) (fun t _ => flushed_eq m c t) fun i => by
    have hi : (i 0).val < 16384 := (i 0).isLt
    let t : Fin cfg0.N := ⟨(i 0).val / 1024, by rw [show cfg0.N = 16 from N_0]; omega⟩
    have e4 : win0_4.index t (0 : Fin 1) = (i 0).val / 1024 := (idx_facts t).1
    refine ⟨t, flush0_4 t, ?_⟩
    rw [mem_blk]
    intro a
    match a with
    | ⟨0, _⟩ =>
      show win0_4.index t 0 * 1024 ≤ (i 0).val ∧ (i 0).val < win0_4.index t 0 * 1024 + 1024
      rw [e4]; omega

/-- THE RUN, read: the result array at `klArray` of the arguments, the arguments unchanged. -/
theorem run : θ_run defs (onTc (τ := τ) (main (F := Ideal))) ⟨m, fun _ => 0, ρ⟩ fun r => ∀ c : Dev nD,
      r.2.mem ((c : Thread nD τ).loc main_v0)
        = klArray (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KlArray

end
-- ==== Proof.RefValue.lean ====
/-
  The reference computes, for every row, `half · (zero + ∑_{d < 1024} term)` in one sum over the row: its result
  array is the specification's `klArray` of its four arguments. Its negation `−sq` and its exponential are, on the
  extended reals, the specification's own.
-/
import proofs.«180838_j17987323036508_2_alg».proof.Proof.Gen.ReferenceIdeal.Read
import proofs.«180838_j17987323036508_2_alg».proof.Proof.KlSpec

noncomputable section

namespace Cert.KlRef

open Idealize.ShloMosaic Idealize.ShloMosaic.ValueIdx Cert.ReferenceIdeal Cert.ReferenceIdeal.Read Cert.Kl

/-- One entry of the array the reference sums is `term` of the four arguments there. -/
theorem summand_apply (x0 x1 x2 x3 : (⟨S16384x1024, .f32⟩ : BufTy).Contents (Elt Ideal)) (r : Fin 16384) (d : Fin 1024) :
    val_main_v11 (F := Ideal) x0 x1 x2 x3 (ix2 r d) = term (x0 (ix2 r d)) (x1 (ix2 r d)) (x2 (ix2 r d)) (x3 (ix2 r d)) := by
  rw [val_main_v11_apply, val_main_v10_apply, val_main_cst_apply]
  rfl

/-- The reference's result is `klArray` of its arguments. -/
theorem result_eq (x0 x1 x2 x3 : (⟨S16384x1024, .f32⟩ : BufTy).Contents (Elt Ideal)) :
    val_main_v14 (F := Ideal) x0 x1 x2 x3 = klArray x0 x1 x2 x3 := by
  funext i
  obtain ⟨r, rfl⟩ : ∃ r : Fin 16384, i = ix1 r := ⟨i 0, eq_ix1 i⟩
  rw [klArray_apply, val_main_v14_apply, val_main_v13_apply, val_main_cst_1_apply, val_main_v12_apply, val_main_cst_0_apply]
  unfold rowKl
  refine congrArg (fun z => half * (zero + z)) (Finset.sum_congr rfl fun k _ => ?_)
  have ek : idx_main_v12 (ix1 r) k = ix2 r k :=
    funext fun a => Fin.ext (by match a with | ⟨0, _⟩ => rfl | ⟨1, _⟩ => rfl)
  rw [ek]
  exact summand_apply x0 x1 x2 x3 r k

end Cert.KlRef

end
-- ==== Proof.lean ====
/-
  Both programs compute, for each of 16384 samples (rows) over 1024 coordinates, the divergence between two
  diagonal Gaussians given by means and log-variances,

      kl[b] = half · ∑_d ( exp(sp − sq) + (mq − mp)² · exp(−sq) + sq − sp − one )        (entries at row b, column d).

  The reference takes the sum over the whole row at once, starting from the zero word. The blocked program works on
  16 blocks of 1024 rows; within a block it walks the row in four stretches of 256 columns, adding each stretch's lane
  sum onto a running total that starts at the zero word, and writes `half` times the total. It negates `sq` by
  subtracting it from the zero word.

  On the extended reals the two results are equal entry by entry: the summands are the same function of the same four
  entries (`zero − x = −x`; the exponential is one function for both programs; the words for 0.5 and 1.0 are the same
  on both sides and are never evaluated), and a sum of 1024 terms is the sum of its four stretches of 256 because
  addition is associative and commutative there. None of this needs the inputs to be finite, so the precondition is
  not opened. The idealized program is the printed program read on the extended reals (no operation was rewritten),
  so the idealization statement is trivial.

  Modules: ChunkSum (the sum of 1024 as four sums of 256), KlSpec (the summand, a row's value, the result array),
  BodyValue (the body's arithmetic at a row), PieceValue (what the body's store leaves), ArrayValue (blocks to the
  array, and the blocked program's run), RefValue (the reference's result is the specification).
-/
import proofs.«180838_j17987323036508_2_alg».proof.Defs
import proofs.«180838_j17987323036508_2_alg».proof.Proof.Gen.Kernel
import proofs.«180838_j17987323036508_2_alg».proof.Proof.Gen.Kernel.Skeleton
import proofs.«180838_j17987323036508_2_alg».proof.Proof.Gen.Kernel.Launch
import proofs.«180838_j17987323036508_2_alg».proof.Proof.Gen.Kernel.Points
import proofs.«180838_j17987323036508_2_alg».proof.Proof.Gen.Kernel.Frame
import proofs.«180838_j17987323036508_2_alg».proof.Proof.Gen.KernelIdeal
import proofs.«180838_j17987323036508_2_alg».proof.Proof.Gen.KernelIdeal.Skeleton
import proofs.«180838_j17987323036508_2_alg».proof.Proof.Gen.KernelIdeal.Launch
import proofs.«180838_j17987323036508_2_alg».proof.Proof.Gen.KernelIdeal.Points
import proofs.«180838_j17987323036508_2_alg».proof.Proof.Gen.KernelIdeal.Frame
import proofs.«180838_j17987323036508_2_alg».proof.Proof.Gen.KernelIdeal.Value
import proofs.«180838_j17987323036508_2_alg».proof.Proof.Gen.ReferenceIdeal
import proofs.«180838_j17987323036508_2_alg».proof.Proof.Gen.ReferenceIdeal.Run
import proofs.«180838_j17987323036508_2_alg».proof.Proof.Gen.ReferenceIdeal.Read
import proofs.«180838_j17987323036508_2_alg».proof.Proof.Gen.Pre_finite_inputs
import proofs.«180838_j17987323036508_2_alg».proof.Proof.ArrayValue
import proofs.«180838_j17987323036508_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the four arguments both programs end with the result array at `klArray` of them. -/
theorem algebraic : Cert.algebraic_KernelIdeal_ReferenceIdeal := by
  intro m ρ m' ρ' _ hagree
  refine ⟨_, Cert.KlArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.KlRef.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
